-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4x1024 : Shape := ⟨3, ![1024, 4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4x1024 : S_.BroadcastsInDim S1024x4x1024 (![] : Fin 0 → Fin S1024x4x1024.rank)
  reducesTo_S1024x4x1024_S_d0_1_2 : S1024x4x1024.ReducesTo [0, 1, 2] S_

variable [Facts]

def fn {F : FTy → Type} [FloatOps F] (main_arg0 : FVec F S8192x1024 .f32) (main_arg1 : FVec F S1024x4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x4x1024 .f32 := Host.absf main_arg1
  let main_cst_0 : FVec F S_ .f32 := constant S_ .f32 0x7F800000#32
  let main_v5 : FVec F S1024x4x1024 .f32 := broadcastInDim S1024x4x1024 ![] bcast_S_S1024x4x1024 main_cst_0
  let main_v6 : IVec S1024x4x1024 1 := cmpf .olt main_v4 main_v5
  let main_c_1 : IVec S_ 1 := constantI S_ 1 1#1
  let main_v7 : IVec S_ 1 := (fun x v => Host.reduce IntOp.andi x v reducesTo_S1024x4x1024_S_d0_1_2 h_S_) main_v6 main_c_1
  let main_v8 : IVec S_ 1 := andi main_v3 main_v7
  main_v8
-- ==== Kernel.lean ====
abbrev S8192x1024 : Shape := ⟨2, ![8192, 1024]⟩
abbrev S1024x4x1024 : Shape := ⟨3, ![1024, 4, 1024]⟩
abbrev S4x1024x1024 : Shape := ⟨3, ![4, 1024, 1024]⟩
abbrev S_ : Shape := ⟨0, ![]⟩
abbrev S4x1024 : Shape := ⟨2, ![4, 1024]⟩
abbrev S4x1x1024 : Shape := ⟨3, ![4, 1, 1024]⟩
abbrev S8192 : Shape := ⟨1, ![8192]⟩
abbrev S8192x1 : Shape := ⟨2, ![8192, 1]⟩
abbrev S512x1024 : Shape := ⟨2, ![512, 1024]⟩
abbrev S512x1 : Shape := ⟨2, ![512, 1]⟩
abbrev S4x512x1024 : Shape := ⟨3, ![4, 512, 1024]⟩
abbrev S4x1x512 : Shape := ⟨3, ![4, 1, 512]⟩
abbrev S512x512 : Shape := ⟨2, ![512, 512]⟩
abbrev S1x512x1024 : Shape := ⟨3, ![1, 512, 1024]⟩
abbrev S1x1x512 : Shape := ⟨3, ![1, 1, 512]⟩
abbrev S1x512 : Shape := ⟨2, ![1, 512]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x4x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024, .f32⟩
  | .hbm, ⟨6, _⟩ => ⟨S4x1x1024, .f32⟩
  | .hbm, ⟨7, _⟩ => ⟨S4x1024x1024, .bf16⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1024, .bf16⟩
  | .hbm, ⟨13, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1, .f32⟩
  | .local _ .vmem, ⟨3, _⟩ => ⟨S512x1, .f32⟩
  | .local _ .vmem, ⟨4, _⟩ => ⟨S4x512x1024, .bf16⟩
  | .local _ .vmem, ⟨5, _⟩ => ⟨S4x512x1024, .bf16⟩
  | .local _ .vmem, ⟨6, _⟩ => ⟨S4x1x512, .f32⟩
  | .local _ .vmem, ⟨7, _⟩ => ⟨S4x1x512, .f32⟩
  | .local _ .vmem, ⟨8, _⟩ => ⟨S512x512, .f32⟩
  | .local _ .vmem, ⟨9, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x4x1024_S4x1024x1024_1_0_2 : S1024x4x1024.Transposes [1, 0, 2] S4x1024x1024
  reducesTo_S4x1024x1024_S4x1024_d2 : S4x1024x1024.ReducesTo [2] S4x1024
  h_S_ : 0 < S_.numel
  bcast_S4x1024_S4x1x1024_0_2 : S4x1024.BroadcastsInDim S4x1x1024 (![0, 2] : Fin 2 → Fin S4x1x1024.rank)
  bitsLt_bf16_f32 : FTy.bits .bf16 < FTy.bits .f32
  reducesTo_S8192x1024_S8192_d1 : S8192x1024.ReducesTo [1] S8192
  bcast_S8192_S8192x1_0 : S8192.BroadcastsInDim S8192x1 (![0] : Fin 1 → Fin S8192x1.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  inb_S4x1x512_S1x1x512_0_0_0 : ∀ a, (![0, 0, 0] : Fin 3 → Nat) a + S1x1x512.size a ≤ S4x1x512.size a
  h_S1x1x512 : 0 < S1x1x512.numel
  shapeCasts_S1x1x512_S1x512 : S1x1x512.ShapeCasts S1x512
  broadcasts_S512x1_S512x512 : S512x1.Broadcasts S512x512
  broadcasts_S1x512_S512x512 : S1x512.Broadcasts S512x512
  inb_S4x512x1024_S1x512x1024_1_0_0 : ∀ a, (![1, 0, 0] : Fin 3 → Nat) a + S1x512x1024.size a ≤ S4x512x1024.size a
  inb_S4x1x512_S1x1x512_1_0_0 : ∀ a, (![1, 0, 0] : Fin 3 → Nat) a + S1x1x512.size a ≤ S4x1x512.size a
  inb_S4x512x1024_S1x512x1024_2_0_0 : ∀ a, (![2, 0, 0] : Fin 3 → Nat) a + S1x512x1024.size a ≤ S4x512x1024.size a
  inb_S4x1x512_S1x1x512_2_0_0 : ∀ a, (![2, 0, 0] : Fin 3 → Nat) a + S1x1x512.size a ≤ S4x1x512.size a
  inb_S4x512x1024_S1x512x1024_3_0_0 : ∀ a, (![3, 0, 0] : Fin 3 → Nat) a + S1x512x1024.size a ≤ S4x512x1024.size a
  inb_S4x1x512_S1x1x512_3_0_0 : ∀ a, (![3, 0, 0] : Fin 3 → Nat) a + S1x1x512.size a ≤ S4x1x512.size a
  inb_S512x512_S512x512_0_0 : ∀ a, (![0, 0] : Fin 2 → Nat) a + S512x512.size a ≤ S512x512.size a
  h_S512x512 : 0 < S512x512.numel
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1024.size a ≤ S4x1024x1024.size a
  hwx0_2 : ∀ i : grid0.Coords, EltTy.bits .bf16 = 32 ∨ (Rect.block (s := S4x1024x1024) S4x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512.size a ≤ S4x1x1024.size a
  hwx0_3 : ∀ i : grid0.Coords, EltTy.bits .f32 = 32 ∨ (Rect.block (s := S4x1x1024) S4x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x1024.size a
  hwx0_4 : ∀ i : grid0.Coords, EltTy.bits .f32 = 32 ∨ (Rect.block (s := S8192x1024) S512x512.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x4x1024 : Shape := ⟨3, ![1024, 4, 1024]⟩
abbrev S_ : Shape := ⟨0, ![]⟩
abbrev S8192 : Shape := ⟨1, ![8192]⟩
abbrev S1024x4 : Shape := ⟨2, ![1024, 4]⟩
abbrev S8192x1024x4 : Shape := ⟨3, ![8192, 1024, 4]⟩
abbrev S8192x1x1 : Shape := ⟨3, ![8192, 1, 1]⟩
abbrev S1x1024x4 : Shape := ⟨3, ![1, 1024, 4]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S1024x4x1024, .f32⟩
  | .hbm, ⟨6, _⟩ => ⟨S_, .f32⟩
  | .hbm, ⟨7, _⟩ => ⟨S1024x4, .f32⟩
  | .hbm, ⟨8, _⟩ => ⟨S8192x1024x4, .f32⟩
  | .hbm, ⟨9, _⟩ => ⟨S8192x1x1, .f32⟩
  | .hbm, ⟨10, _⟩ => ⟨S_, .f32⟩
  | .hbm, ⟨11, _⟩ => ⟨S8192x1024x4, .f32⟩
  | .hbm, ⟨12, _⟩ => ⟨S8192x1024x4, .f32⟩
  | .hbm, ⟨13, _⟩ => ⟨S8192x1024x4, .f32⟩
  | .hbm, ⟨14, _⟩ => ⟨S8192x1024x4, .f32⟩
  | .hbm, ⟨15, _⟩ => ⟨S1x1024x4, .f32⟩
  | .hbm, ⟨16, _⟩ => ⟨S8192x1024x4, .f32⟩
  | .hbm, ⟨17, _⟩ => ⟨S8192x1024x4, .f32⟩
  | .hbm, ⟨18, _⟩ => ⟨S8192x1024x4, .f32⟩
  | .hbm, ⟨19, _⟩ => ⟨S_, .f32⟩
  | .hbm, ⟨20, _⟩ => ⟨S8192x1024x4, .f32⟩
  | .hbm, ⟨21, _⟩ => ⟨S8192x1024x4, .f32⟩
  | .hbm, ⟨22, _⟩ => ⟨S8192x1024x4, .f32⟩
  | .hbm, ⟨23, _⟩ => ⟨S_, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  reducesTo_S1024x4x1024_S1024x4_d2 : S1024x4x1024.ReducesTo [2] S1024x4
  bcast_S8192_S8192x1x1_0 : S8192.BroadcastsInDim S8192x1x1 (![0] : Fin 1 → Fin S8192x1x1.rank)
  bcast_S_S8192x1024x4 : S_.BroadcastsInDim S8192x1024x4 (![] : Fin 0 → Fin S8192x1024x4.rank)
  bcast_S8192x1x1_S8192x1024x4_0_1_2 : S8192x1x1.BroadcastsInDim S8192x1024x4 (![0, 1, 2] : Fin 3 → Fin S8192x1024x4.rank)
  bcast_S1024x4_S1x1024x4_1_2 : S1024x4.BroadcastsInDim S1x1024x4 (![1, 2] : Fin 2 → Fin S1x1024x4.rank)
  bcast_S1x1024x4_S8192x1024x4_0_1_2 : S1x1024x4.BroadcastsInDim S8192x1024x4 (![0, 1, 2] : Fin 3 → Fin S8192x1024x4.rank)
  reducesTo_S8192x1024x4_S8192x1024_d2 : S8192x1024x4.ReducesTo [2] S8192x1024
  bcast_S_S8192x1024 : S_.BroadcastsInDim S8192x1024 (![] : Fin 0 → Fin S8192x1024.rank)
  dot_S8192x1024_S1024x4x1024_S8192x1024x4_1_2_0_01_n_n_wf : DotDims.WF S8192x1024 S1024x4x1024 S8192x1024x4 [1] [2] [0] [0, 1] [] []

variable [Facts₀]

def dot_S8192x1024_S1024x4x1024_S8192x1024x4_1_2_0_01_n_n : DotDims S8192x1024 S1024x4x1024 S8192x1024x4 where
  lhsContracting := [1]
  rhsContracting := [2]
  lhsNonContracting := [0]
  rhsNonContracting := [0, 1]
  lhsBatch := []
  rhsBatch := []
  wf := dot_S8192x1024_S1024x4x1024_S8192x1024x4_1_2_0_01_n_n_wf

class Facts : Prop extends Facts₀ where

variable [Facts]
-- ==== Proof.Spec.lean ====
/-
  The max-normalised Gaussian mixture, index by index, on the extended reals.

  For a row `b` of `x` and a class `o` with four centres `c(o, m, ·)`, the squared distance is expanded as
  `‖x_b‖² − 2 ⟨x_b, c_{o,m}⟩ + ‖c_{o,m}‖²`; component `m` weighs `exp` of minus the distance over `2σ² = 1/2`, that is
  `exp (2 · (0 − distance))`; the four weights `p` are combined as `Σp / ((Σp + 4) − 4 · max p`).  This module states that
  value once as scalar functions (`weight`, `combine`), once over the two argument arrays (`mix`) and once over the
  four arrays a tiled evaluation is handed (`mixTiled`: `x`, its squared row norms as a column, the centres with the
  component axis first, their squared norms as [4, 1, O]), and proves the three scalar laws that join the two spellings:
  dividing by one half is doubling, a sum of four from zero, a maximum of four from −∞.
-/
import Idealize.ShloMosaic.PureOps.Ideal
import Idealize.ShloMosaic.PureOps.Ideal.Laws
import Idealize.ShloMosaic.Lib.ValueIdx

noncomputable section

namespace Cert.RbfMix

open Idealize.ShloMosaic Idealize.ShloMosaic.ValueIdx

/-! ## The scalar functions -/

/-- One component's weight from the squared norm `n` of the row, the inner product `s` and the squared norm `k` of the
    centre: `exp ((0 − ((n − 2 s) + k)) · 2)`. -/
def weight (n s k : EReal) : EReal :=
  Ideal.exp ((0 - ((n - Ideal.ofBits .f32 0x40000000#32 * s) + k)) * Ideal.ofBits .f32 0x40000000#32)

/-- The four weights combined: their sum over (their sum plus four, minus four times their maximum). -/
def combine (p : Fin 4 → EReal) : EReal :=
  Ideal.div (p 0 + p 1 + p 2 + p 3)
    ((p 0 + p 1 + p 2 + p 3 + Ideal.ofBits .f32 0x40800000#32)
      - Ideal.ofBits .f32 0x40800000#32 * max (max (max (p 0) (p 1)) (p 2)) (p 3))

/-- `weight` of equal arguments. -/
theorem weight_congr {n n' s s' k k' : EReal} (h1 : n = n') (h2 : s = s') (h3 : k = k') :
    weight n s k = weight n' s' k' := by
  rw [h1, h2, h3]

/-- `combine` only reads its four components. -/
theorem combine_congr {f g : Fin 4 → EReal} (h0 : f 0 = g 0) (h1 : f 1 = g 1) (h2 : f 2 = g 2) (h3 : f 3 = g 3) :
    combine f = combine g := by
  unfold combine; rw [h0, h1, h2, h3]

/-! ## Over the arrays -/

/-- The value at row `b`, class `o`, from the two argument arrays `x : [8192, 1024]` and `c : [1024, 4, 1024]`. -/
def mixAt (x : (⟨2, ![8192, 1024]⟩ : Shape).Idx → EReal) (c : (⟨3, ![1024, 4, 1024]⟩ : Shape).Idx → EReal)
    (b : Fin 8192) (o : Fin 1024) : EReal :=
  combine fun m => weight (∑ d : Fin 1024, x (ix2 b d) * x (ix2 b d))
    (∑ d : Fin 1024, x (ix2 b d) * c (ix3 o m d))
    (∑ d : Fin 1024, c (ix3 o m d) * c (ix3 o m d))

/-- The whole result array as a function of the two argument arrays. -/
def mix (x : (⟨2, ![8192, 1024]⟩ : Shape).Idx → EReal) (c : (⟨3, ![1024, 4, 1024]⟩ : Shape).Idx → EReal) :
    (⟨2, ![8192, 1024]⟩ : Shape).Idx → EReal :=
  fun i => mixAt x c (i 0) (i 1)

/-- The same value from the four arrays a tiled evaluation reads: `X = x`, `N` the column of squared row norms,
    `C` the centres with the component axis first, `K` their squared norms as `[4, 1, 1024]`. -/
def mixTiledAt (X : (⟨2, ![8192, 1024]⟩ : Shape).Idx → EReal) (N : (⟨2, ![8192, 1]⟩ : Shape).Idx → EReal)
    (C : (⟨3, ![4, 1024, 1024]⟩ : Shape).Idx → EReal) (K : (⟨3, ![4, 1, 1024]⟩ : Shape).Idx → EReal)
    (b : Fin 8192) (o : Fin 1024) : EReal :=
  combine fun m => weight (N (ix2 b (0 : Fin 1))) (∑ d : Fin 1024, X (ix2 b d) * C (ix3 m o d)) (K (ix3 m (0 : Fin 1) o))

/-- The whole result array as a function of those four arrays. -/
def mixTiled (X : (⟨2, ![8192, 1024]⟩ : Shape).Idx → EReal) (N : (⟨2, ![8192, 1]⟩ : Shape).Idx → EReal)
    (C : (⟨3, ![4, 1024, 1024]⟩ : Shape).Idx → EReal) (K : (⟨3, ![4, 1, 1024]⟩ : Shape).Idx → EReal) :
    (⟨2, ![8192, 1024]⟩ : Shape).Idx → EReal :=
  fun i => mixTiledAt X N C K (i 0) (i 1)

/-! ## The scalar laws -/

/-- The word of 2.0 is the real 2. -/
theorem word_two : Ideal.ofBits .f32 0x40000000#32 = ((2 : ℝ) : EReal) := by
  simp [Ideal.ofBits, Ideal.ieee, -EReal.coe_mul]; norm_num

/-- The word of 0.5 is the real 1/2. -/
theorem word_half : Ideal.ofBits .f32 0x3F000000#32 = ((1 / 2 : ℝ) : EReal) := by
  simp [Ideal.ofBits, Ideal.ieee, -EReal.coe_mul]; norm_num

/-- The word of −∞ is the bottom of the extended reals. -/
theorem word_neg_inf : Ideal.ofBits .f32 0xFF800000#32 = (⊥ : EReal) := by
  simp [Ideal.ofBits, Ideal.ieee]

/-- Dividing by one half is doubling, for every extended real. -/
theorem div_half (a : EReal) :
    Ideal.div a (Ideal.ofBits .f32 0x3F000000#32) = a * Ideal.ofBits .f32 0x40000000#32 := by
  rw [word_half, word_two, Ideal.div_coe (by norm_num : (1 / 2 : ℝ) ≠ 0)]
  norm_num

/-- The negation of `a` over one half is `(0 − a) · 2`: the two spellings of a weight's exponent. -/
theorem neg_div_half (a : EReal) :
    Ideal.div (-a) (Ideal.ofBits .f32 0x3F000000#32) = (0 - a) * Ideal.ofBits .f32 0x40000000#32 := by
  rw [div_half, zero_sub]

/-- A sum of four terms started from the zero word. -/
theorem sum_four (f : Fin 4 → EReal) :
    Ideal.ofBits .f32 0x00000000#32 + ∑ k : Fin 4, f k = f 0 + f 1 + f 2 + f 3 := by
  rw [Ideal.ofBits_zero_f32, zero_add, Fin.sum_univ_four]

/-- A maximum of four terms folded from the word of −∞. -/
theorem max_four (f : Fin 4 → EReal) :
    Finset.fold max (Ideal.ofBits .f32 0xFF800000#32) f (Finset.univ : Finset (Fin 4))
      = max (max (max (f 0) (f 1)) (f 2)) (f 3) := by
  rw [word_neg_inf]
  have hu : (Finset.univ : Finset (Fin 4)) = {0, 1, 2, 3} := by decide
  rw [hu]
  simp [Finset.fold_insert, max_assoc]

end Cert.RbfMix

end
-- ==== Proof.RefValue.lean ====
/-
  The reference program's result is the mixture `mix` of its two arguments, index by index.

  Read one operation at a time, the reference forms at `(b, o, m)` the squared norm of row `b` minus twice the
  inner product with centre `(o, m)` plus that centre's squared norm, negates it, divides by one half and
  exponentiates: that is `weight` (dividing by one half is doubling).  Its sum over the four components starts from
  zero and its maximum from −∞, which are the plain sum and maximum of four, and the last three operations are
  `combine`.
-/
import proofs.«165545_j36069135351858_2_alg».proof.Proof.Gen.ReferenceIdeal.Read
import proofs.«165545_j36069135351858_2_alg».proof.Proof.Spec

noncomputable section

namespace Cert.RbfMix.Reference

open Cert.ReferenceIdeal Cert.ReferenceIdeal.Gen Cert.ReferenceIdeal.Read Idealize.ShloMosaic Idealize.ShloMosaic.ValueIdx
open Cert.RbfMix

/-- Component `m`'s weight at row `b`, class `o`, as the reference computes it. -/
theorem weight_at (x0 : (⟨S8192x1024, .f32⟩ : BufTy).Contents (Elt Ideal)) (x1 : (⟨S1024x4x1024, .f32⟩ : BufTy).Contents (Elt Ideal))
    (b : Fin 8192) (o : Fin 1024) (m : Fin 4) :
    val_main_v16 (F := Ideal) x0 x1 (ix3 b o m)
      = weight (∑ d : Fin 1024, x0 (ix2 b d) * x0 (ix2 b d)) (∑ d : Fin 1024, x0 (ix2 b d) * x1 (ix3 o m d))
          (∑ d : Fin 1024, x1 (ix3 o m d) * x1 (ix3 o m d)) := by
  rw [val_main_v16_apply, val_main_v15_apply, val_main_v14_apply, val_main_cst_2_apply, val_main_v13_apply,
    val_main_v12_apply, val_main_v9_apply, val_main_v8_apply, val_main_v5_apply, val_main_v1_apply, val_main_v7_apply,
    val_main_v6_apply, val_main_cst_1_apply, val_main_v4_apply, val_main_v11_apply, val_main_v10_apply,
    val_main_v3_apply]
  have e1 : ∀ k : Fin 1024, idx_main_v1 (idx_main_v5 (idx_main_v8 (ix3 b o m))) k = ix2 b k := fun k =>
    funext fun a => by match a with | ⟨0, _⟩ => rfl | ⟨1, _⟩ => rfl
  have e2 : ∀ k : Fin 1024, lidx_main_v4 (ix3 b o m) k = ix2 b k := fun k =>
    funext fun a => by match a with | ⟨0, _⟩ => rfl | ⟨1, _⟩ => rfl
  have e3 : ∀ k : Fin 1024, ridx_main_v4 (ix3 b o m) k = ix3 o m k := fun k =>
    funext fun a => by match a with | ⟨0, _⟩ => rfl | ⟨1, _⟩ => rfl | ⟨2, _⟩ => rfl
  have e4 : ∀ k : Fin 1024, idx_main_v3 (idx_main_v10 (idx_main_v11 (ix3 b o m))) k = ix3 o m k := fun k =>
    funext fun a => by match a with | ⟨0, _⟩ => rfl | ⟨1, _⟩ => rfl | ⟨2, _⟩ => rfl
  simp only [val_main_v0_apply, val_main_v2_apply, val_main_cst_apply, val_main_cst_0_apply, e1, e2, e3, e4,
    Ideal.hostUnary_exp_def, Ideal.hostDivf_def, Ideal.hostNegf_def, Ideal.negf_def, Ideal.addf_def, Ideal.subf_def,
    Ideal.mulf_def, Ideal.ofBits_def, Ideal.ofBits_zero_f32, zero_add]
  rw [neg_div_half]
  rfl

/-- The reduced index `(b, o)` with component `k` put back is `(b, o, k)`. -/
theorem lift_at (h : S8192x1024x4.Reduces [2] S8192x1024) (b : Fin 8192) (o : Fin 1024) (k : Fin (S8192x1024x4.size 2)) :
    h.lift (ix2 b o) k = ix3 b o (⟨k.val, k.isLt⟩ : Fin 4) := by
  funext c; apply Fin.ext
  fin_cases c <;> rfl

/-- The reference's maximum over the components, from −∞, is the maximum of the four weights. -/
theorem max_at (x0 : (⟨S8192x1024, .f32⟩ : BufTy).Contents (Elt Ideal)) (x1 : (⟨S1024x4x1024, .f32⟩ : BufTy).Contents (Elt Ideal))
    (b : Fin 8192) (o : Fin 1024) :
    val_main_v18 (F := Ideal) x0 x1 (ix2 b o)
      = max (max (max (val_main_v16 (F := Ideal) x0 x1 (ix3 b o 0)) (val_main_v16 (F := Ideal) x0 x1 (ix3 b o 1)))
          (val_main_v16 (F := Ideal) x0 x1 (ix3 b o 2))) (val_main_v16 (F := Ideal) x0 x1 (ix3 b o 3)) := by
  unfold val_main_v18
  have h : S8192x1024x4.Reduces [2] S8192x1024 := by decide
  rw [Host.reduce_eq_fold_single FloatOps.maximumf _ _ reducesTo_S8192x1024x4_S8192x1024_d2 h h_S_]
  have e := max_four (fun k : Fin 4 => val_main_v16 (F := Ideal) x0 x1 (ix3 b o k))
  refine Eq.trans ?_ e
  have hf : (val_main_v16 (F := Ideal) x0 x1 ∘ h.lift (ix2 b o)) = fun k : Fin 4 => val_main_v16 (F := Ideal) x0 x1 (ix3 b o k) :=
    funext fun k => congrArg (val_main_v16 (F := Ideal) x0 x1) (lift_at h b o k)
  exact congrArg (fun f => Finset.fold max (Ideal.ofBits .f32 0xFF800000#32) f (Finset.univ : Finset (Fin 4))) hf

/-- THE REFERENCE'S RESULT is the mixture of its arguments. -/
theorem value_eq (x0 : (⟨S8192x1024, .f32⟩ : BufTy).Contents (Elt Ideal)) (x1 : (⟨S1024x4x1024, .f32⟩ : BufTy).Contents (Elt Ideal)) :
    val_main_v24 (F := Ideal) x0 x1 = mix x0 x1 := by
  funext i
  obtain ⟨b, o, rfl⟩ : ∃ (b : Fin 8192) (o : Fin 1024), i = ix2 b o := ⟨i 0, i 1, eq_ix2 i⟩
  rw [val_main_v24_apply, val_main_v23_apply, val_main_v22_apply, val_main_v21_apply, val_main_cst_6_apply,
    val_main_v20_apply, val_main_v19_apply, val_main_cst_5_apply, val_main_v17_apply, val_main_cst_3_apply, max_at]
  have hs : ∀ k : Fin 4, idx_main_v17 (ix2 b o) k = ix3 b o k := fun k =>
    funext fun a => by match a with | ⟨0, _⟩ => rfl | ⟨1, _⟩ => rfl | ⟨2, _⟩ => rfl
  simp only [hs, weight_at, Ideal.hostDivf_def, Ideal.addf_def, Ideal.subf_def, Ideal.mulf_def, Ideal.ofBits_def]
  rw [sum_four]
  rfl

end Cert.RbfMix.Reference

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.Body.lean ====
/-
  What one grid point leaves in its output block, index by index.

  The body holds a block `X` of 512 rows of `x`, the column `N` of their squared norms, four blocks of 512 centres
  (one per component, stacked on the leading axis) and the four rows of those centres' squared norms.  For each
  component it forms the 512×512 block `0 − ((N − 2·(X·Cᵀ)) + K)`, doubles it and exponentiates; the four blocks are
  added, their entrywise maximum taken, and the quotient `Σ / ((Σ + 4) − 4·max)` is stored whole.  Read at `(p, q)` this
  is `combine` of four `weight`s, of row `p`'s norm, the inner product of row `p` with centre `q` of the component,
  and that centre's norm.
-/
import proofs.«165545_j36069135351858_2_alg».proof.Proof.Gen.KernelIdeal.Frame
import proofs.«165545_j36069135351858_2_alg».proof.Proof.Spec
import proofs.«165545_j36069135351858_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.RbfMix.Body

open Cert.KernelIdeal Cert.KernelIdeal.Gen Idealize.ShloMosaic Idealize.ShloMosaic.ValueIdx
open Cert.RbfMix

/-! ## The block product -/

/-- The left operand's row coordinate under the block product's dimension numbers is the output's row. -/
theorem lhs_row (i : S512x512.Idx) (k : dot_S512x1024_S512x1024_S512x512_1_1_0_0_n_n.contr.Idx) : (dot_S512x1024_S512x1024_S512x512_1_1_0_0_n_n.lhsIdx i k 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl

/-- Its contracted coordinate is the contraction index. -/
theorem lhs_col (i : S512x512.Idx) (k : dot_S512x1024_S512x1024_S512x512_1_1_0_0_n_n.contr.Idx) : (dot_S512x1024_S512x1024_S512x512_1_1_0_0_n_n.lhsIdx i k 1).val = (k ⟨0, by decide⟩).val :=
  dot_S512x1024_S512x1024_S512x512_1_1_0_0_n_n.lhsIdx_val_of_single rfl i k

/-- The right operand's row coordinate is the output's column: the right operand enters transposed. -/
theorem rhs_row (i : S512x512.Idx) (k : dot_S512x1024_S512x1024_S512x512_1_1_0_0_n_n.contr.Idx) : (dot_S512x1024_S512x1024_S512x512_1_1_0_0_n_n.rhsIdx i k 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl

/-- Its contracted coordinate is the contraction index. -/
theorem rhs_col (i : S512x512.Idx) (k : dot_S512x1024_S512x1024_S512x512_1_1_0_0_n_n.contr.Idx) : (dot_S512x1024_S512x1024_S512x512_1_1_0_0_n_n.rhsIdx i k 1).val = (k ⟨0, by decide⟩).val :=
  dot_S512x1024_S512x1024_S512x512_1_1_0_0_n_n.rhsIdx_val_of_single rfl i k

/-- The product of a 512×1024 block with the transpose of another, into the zero block, at `(p, q)`: the inner product
    of row `p` of the first with row `q` of the second. -/
theorem dot_at (X C : FVec Ideal S512x1024 .bf16) (p q : Fin 512) :
    matmul dot_S512x1024_S512x1024_S512x512_1_1_0_0_n_n none X C (constant (F := Ideal) S512x512 .f32 0x00000000#32) (ix2 p q)
      = ∑ d : Fin 1024, X (ix2 p d) * C (ix2 q d) := by
  refine (Ideal.matmul_constant_zero_apply dot_S512x1024_S512x1024_S512x512_1_1_0_0_n_n none X C (ix2 p q)).trans ?_
  rw [← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k :=
    funext fun a => Fin.ext (by
      match a with
      | ⟨0, _⟩ => exact lhs_row _ _
      | ⟨1, _⟩ => exact (lhs_col _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k :=
    funext fun a => Fin.ext (by
      match a with
      | ⟨0, _⟩ => exact rhs_row _ _
      | ⟨1, _⟩ => exact (rhs_col _ _).trans hk)
  rw [el, er]

/-! ## One component -/

/-- One component's block before doubling: `0 − ((N − 2·(X·Cᵀ)) + K)`, with the column `N` spread along the rows and
    the row `K` down the columns. -/
def negDistBlk (X : FVec Ideal S512x1024 .bf16) (N : FVec Ideal S512x1 .f32) (C : FVec Ideal S1x512x1024 .bf16)
    (K : FVec Ideal S1x1x512 .f32) : FVec Ideal S512x512 .f32 :=
  subf (broadcast S512x512 (Scalar.ofBits .f32 0x00000000#32))
    (addf (subf (broadcastTo S512x512 N Facts₀.broadcasts_S512x1_S512x512)
        (mulf (broadcast S512x512 (Scalar.ofBits .f32 0x40000000#32))
          (matmul dot_S512x1024_S512x1024_S512x512_1_1_0_0_n_n none X (shapeCast S512x1024 C Facts₀.shapeCasts_S1x512x1024_S512x1024)
            (constant S512x512 .f32 0x00000000#32))))
      (broadcastTo S512x512 (shapeCast S1x512 K Facts₀.shapeCasts_S1x1x512_S1x512) Facts₀.broadcasts_S1x512_S512x512))

/-- That block at `(p, q)`. -/
theorem negDistBlk_apply (X : FVec Ideal S512x1024 .bf16) (N : FVec Ideal S512x1 .f32) (C : FVec Ideal S1x512x1024 .bf16)
    (K : FVec Ideal S1x1x512 .f32) (p q : Fin 512) :
    negDistBlk X N C K (ix2 p q)
      = 0 - ((N (ix2 p (0 : Fin 1)) - Ideal.ofBits .f32 0x40000000#32 * ∑ d : Fin 1024, X (ix2 p d) * C (ix3 (0 : Fin 1) q d))
          + K (ix3 (0 : Fin 1) (0 : Fin 1) q)) := by
  unfold negDistBlk
  rw [subf_apply, addf_apply, subf_apply, mulf_apply, broadcast_apply, broadcast_apply,
    Cert.Bridge.Layout.broadcastTo_a1_an_apply, broadcastTo_1b_ab_apply, shapeCast_1ab_ab_apply, dot_at]
  simp only [shapeCast_1ab_ab_apply]
  show Ideal.ofBits .f32 0x00000000#32 - _ = _
  rw [Ideal.ofBits_zero_f32]
  rfl

/-- One component's weight block — the exponential of the doubled block above — at `(p, q)`. -/
theorem weightBlk_at (X : FVec Ideal S512x1024 .bf16) (N : FVec Ideal S512x1 .f32) (C : FVec Ideal S1x512x1024 .bf16)
    (K : FVec Ideal S1x1x512 .f32) (p q : Fin 512) :
    exp (mulf (negDistBlk X N C K) (broadcast S512x512 (Scalar.ofBits .f32 0x40000000#32))) (ix2 p q)
      = weight (N (ix2 p (0 : Fin 1))) (∑ d : Fin 1024, X (ix2 p d) * C (ix3 (0 : Fin 1) q d))
          (K (ix3 (0 : Fin 1) (0 : Fin 1) q)) := by
  show Ideal.exp (negDistBlk X N C K (ix2 p q) * Ideal.ofBits .f32 0x40000000#32) = _
  rw [negDistBlk_apply]
  rfl

/-! ## The loads -/

theorem zero_offsets : (![0, 0] : Fin 2 → Nat) = fun _ => 0 := funext fun a => by fin_cases a <;> rfl

/-- Component 0's centres, loaded from the stacked block, at `(0, q, d)`: the stacked block at `(0, q, d)`. -/
theorem ld_centres_0 (x2 : Vec Ideal S4x512x1024 .bf16) (q : Fin 512) (d : Fin 1024) :
    (View.ld x2 r0_2 : Vec Ideal S1x512x1024 .bf16) (ix3 (0 : Fin 1) q d) = x2 (ix3 (0 : Fin 4) q d) := by
  show x2 (r0_2.idx (ix3 (0 : Fin 1) q d)) = _
  refine congrArg x2 (funext fun a => Fin.ext ?_)
  match a with
  | ⟨0, _⟩ => show 0 + 1 * 0 = 0; rfl
  | ⟨1, _⟩ => show 0 + 1 * q.val = q.val; omega
  | ⟨2, _⟩ => show 0 + 1 * d.val = d.val; omega

/-- Component 0's centre norms, loaded from the stacked rows, at `(0, 0, q)`: the stacked rows at `(0, 0, q)`. -/
theorem ld_norms_0 (x3 : Vec Ideal S4x1x512 .f32) (q : Fin 512) :
    (View.ld x3 r0_3 : Vec Ideal S1x1x512 .f32) (ix3 (0 : Fin 1) (0 : Fin 1) q) = x3 (ix3 (0 : Fin 4) (0 : Fin 1) q) := by
  show x3 (r0_3.idx (ix3 (0 : Fin 1) (0 : Fin 1) q)) = _
  refine congrArg x3 (funext fun a => Fin.ext ?_)
  match a with
  | ⟨0, _⟩ => show 0 + 1 * 0 = 0; rfl
  | ⟨1, _⟩ => show 0 + 1 * 0 = 0; rfl
  | ⟨2, _⟩ => show 0 + 1 * q.val = q.val; omega

/-- Component 1's centres, loaded from the stacked block, at `(0, q, d)`: the stacked block at `(1, q, d)`. -/
theorem ld_centres_1 (x2 : Vec Ideal S4x512x1024 .bf16) (q : Fin 512) (d : Fin 1024) :
    (View.ld x2 r0_4 : Vec Ideal S1x512x1024 .bf16) (ix3 (0 : Fin 1) q d) = x2 (ix3 (1 : Fin 4) q d) := by
  show x2 (r0_4.idx (ix3 (0 : Fin 1) q d)) = _
  refine congrArg x2 (funext fun a => Fin.ext ?_)
  match a with
  | ⟨0, _⟩ => show 1 + 1 * 0 = 1; rfl
  | ⟨1, _⟩ => show 0 + 1 * q.val = q.val; omega
  | ⟨2, _⟩ => show 0 + 1 * d.val = d.val; omega

/-- Component 1's centre norms, loaded from the stacked rows, at `(0, 0, q)`: the stacked rows at `(1, 0, q)`. -/
theorem ld_norms_1 (x3 : Vec Ideal S4x1x512 .f32) (q : Fin 512) :
    (View.ld x3 r0_5 : Vec Ideal S1x1x512 .f32) (ix3 (0 : Fin 1) (0 : Fin 1) q) = x3 (ix3 (1 : Fin 4) (0 : Fin 1) q) := by
  show x3 (r0_5.idx (ix3 (0 : Fin 1) (0 : Fin 1) q)) = _
  refine congrArg x3 (funext fun a => Fin.ext ?_)
  match a with
  | ⟨0, _⟩ => show 1 + 1 * 0 = 1; rfl
  | ⟨1, _⟩ => show 0 + 1 * 0 = 0; rfl
  | ⟨2, _⟩ => show 0 + 1 * q.val = q.val; omega

/-- Component 2's centres, loaded from the stacked block, at `(0, q, d)`: the stacked block at `(2, q, d)`. -/
theorem ld_centres_2 (x2 : Vec Ideal S4x512x1024 .bf16) (q : Fin 512) (d : Fin 1024) :
    (View.ld x2 r0_6 : Vec Ideal S1x512x1024 .bf16) (ix3 (0 : Fin 1) q d) = x2 (ix3 (2 : Fin 4) q d) := by
  show x2 (r0_6.idx (ix3 (0 : Fin 1) q d)) = _
  refine congrArg x2 (funext fun a => Fin.ext ?_)
  match a with
  | ⟨0, _⟩ => show 2 + 1 * 0 = 2; rfl
  | ⟨1, _⟩ => show 0 + 1 * q.val = q.val; omega
  | ⟨2, _⟩ => show 0 + 1 * d.val = d.val; omega

/-- Component 2's centre norms, loaded from the stacked rows, at `(0, 0, q)`: the stacked rows at `(2, 0, q)`. -/
theorem ld_norms_2 (x3 : Vec Ideal S4x1x512 .f32) (q : Fin 512) :
    (View.ld x3 r0_7 : Vec Ideal S1x1x512 .f32) (ix3 (0 : Fin 1) (0 : Fin 1) q) = x3 (ix3 (2 : Fin 4) (0 : Fin 1) q) := by
  show x3 (r0_7.idx (ix3 (0 : Fin 1) (0 : Fin 1) q)) = _
  refine congrArg x3 (funext fun a => Fin.ext ?_)
  match a with
  | ⟨0, _⟩ => show 2 + 1 * 0 = 2; rfl
  | ⟨1, _⟩ => show 0 + 1 * 0 = 0; rfl
  | ⟨2, _⟩ => show 0 + 1 * q.val = q.val; omega

/-- Component 3's centres, loaded from the stacked block, at `(0, q, d)`: the stacked block at `(3, q, d)`. -/
theorem ld_centres_3 (x2 : Vec Ideal S4x512x1024 .bf16) (q : Fin 512) (d : Fin 1024) :
    (View.ld x2 r0_8 : Vec Ideal S1x512x1024 .bf16) (ix3 (0 : Fin 1) q d) = x2 (ix3 (3 : Fin 4) q d) := by
  show x2 (r0_8.idx (ix3 (0 : Fin 1) q d)) = _
  refine congrArg x2 (funext fun a => Fin.ext ?_)
  match a with
  | ⟨0, _⟩ => show 3 + 1 * 0 = 3; rfl
  | ⟨1, _⟩ => show 0 + 1 * q.val = q.val; omega
  | ⟨2, _⟩ => show 0 + 1 * d.val = d.val; omega

/-- Component 3's centre norms, loaded from the stacked rows, at `(0, 0, q)`: the stacked rows at `(3, 0, q)`. -/
theorem ld_norms_3 (x3 : Vec Ideal S4x1x512 .f32) (q : Fin 512) :
    (View.ld x3 r0_9 : Vec Ideal S1x1x512 .f32) (ix3 (0 : Fin 1) (0 : Fin 1) q) = x3 (ix3 (3 : Fin 4) (0 : Fin 1) q) := by
  show x3 (r0_9.idx (ix3 (0 : Fin 1) (0 : Fin 1) q)) = _
  refine congrArg x3 (funext fun a => Fin.ext ?_)
  match a with
  | ⟨0, _⟩ => show 3 + 1 * 0 = 3; rfl
  | ⟨1, _⟩ => show 0 + 1 * 0 = 0; rfl
  | ⟨2, _⟩ => show 0 + 1 * q.val = q.val; omega

/-! ## The stored block -/

/-- The last operations of the body — the sum of the four weight blocks over that sum plus four minus four times
    their entrywise maximum — at an index: `combine` of the four blocks there. -/
theorem combine_at (a b c d : FVec Ideal S512x512 .f32) (i : S512x512.Idx) :
    k0_pay1 (addf (addf (addf a b) c) d) (maximumf (maximumf (maximumf a b) c) d) i = combine ![a i, b i, c i, d i] := rfl

/-- WHAT THE BODY STORES, at `(p, q)`, from the contents `x0 … x3` of its four input blocks: `combine` of the four
    components' weights of row `p`'s norm, its inner product with centre `q`, and that centre's norm. -/
theorem out_at (x0 : Vec Ideal S512x1024 .bf16) (x1 : Vec Ideal S512x1 .f32) (x2 : Vec Ideal S4x512x1024 .bf16)
    (x3 : Vec Ideal S4x1x512 .f32) (p q : Fin 512) :
    out0_4 (F := Ideal) x0 x1 x2 x3 (ix2 p q)
      = combine fun m => weight (x1 (ix2 p (0 : Fin 1))) (∑ d : Fin 1024, x0 (ix2 p d) * x2 (ix3 m q d))
          (x3 (ix3 m (0 : Fin 1) q)) := by
  unfold out0_4
  rw [View.canon_unit_zero zero_offsets]
  have hX : k0_pay2 (View.ld x0 r0_0) = x0 := by
    unfold k0_pay2; rw [shapeCast_self, View.ld_unit_zero zero_offsets]
  have hN : k0_pay3 (View.ld x1 r0_1) = x1 := by
    unfold k0_pay3; rw [shapeCast_self, View.ld_unit_zero zero_offsets]
  have w0 : k0_pay4 (View.ld x0 r0_0) (View.ld x1 r0_1) (View.ld x2 r0_2) (View.ld x3 r0_3) (ix2 p q)
      = weight (x1 (ix2 p (0 : Fin 1))) (∑ d : Fin 1024, x0 (ix2 p d) * x2 (ix3 (0 : Fin 4) q d)) (x3 (ix3 (0 : Fin 4) (0 : Fin 1) q)) := by
    refine (weightBlk_at (k0_pay2 (View.ld x0 r0_0)) (k0_pay3 (View.ld x1 r0_1)) (View.ld x2 r0_2) (View.ld x3 r0_3) p q).trans ?_
    rw [hX, hN]
    exact congrArg₂ (weight (x1 (ix2 p (0 : Fin 1))))
      (Finset.sum_congr rfl fun d _ => congrArg (x0 (ix2 p d) * ·) (ld_centres_0 x2 q d)) (ld_norms_0 x3 q)
  have w1 : k0_pay7 (k0_pay5 (View.ld x0 r0_0) (View.ld x1 r0_1) (View.ld x2 r0_4) (View.ld x3 r0_5)) (k0_pay6 (F := Ideal)) (ix2 p q)
      = weight (x1 (ix2 p (0 : Fin 1))) (∑ d : Fin 1024, x0 (ix2 p d) * x2 (ix3 (1 : Fin 4) q d)) (x3 (ix3 (1 : Fin 4) (0 : Fin 1) q)) := by
    refine (weightBlk_at (k0_pay2 (View.ld x0 r0_0)) (k0_pay3 (View.ld x1 r0_1)) (View.ld x2 r0_4) (View.ld x3 r0_5) p q).trans ?_
    rw [hX, hN]
    exact congrArg₂ (weight (x1 (ix2 p (0 : Fin 1))))
      (Finset.sum_congr rfl fun d _ => congrArg (x0 (ix2 p d) * ·) (ld_centres_1 x2 q d)) (ld_norms_1 x3 q)
  have w2 : k0_pay8 (k0_pay2 (View.ld x0 r0_0)) (k0_pay3 (View.ld x1 r0_1)) (View.ld x2 r0_6) (View.ld x3 r0_7) (ix2 p q)
      = weight (x1 (ix2 p (0 : Fin 1))) (∑ d : Fin 1024, x0 (ix2 p d) * x2 (ix3 (2 : Fin 4) q d)) (x3 (ix3 (2 : Fin 4) (0 : Fin 1) q)) := by
    refine (weightBlk_at (k0_pay2 (View.ld x0 r0_0)) (k0_pay3 (View.ld x1 r0_1)) (View.ld x2 r0_6) (View.ld x3 r0_7) p q).trans ?_
    rw [hX, hN]
    exact congrArg₂ (weight (x1 (ix2 p (0 : Fin 1))))
      (Finset.sum_congr rfl fun d _ => congrArg (x0 (ix2 p d) * ·) (ld_centres_2 x2 q d)) (ld_norms_2 x3 q)
  have w3 : k0_pay9 (k0_pay2 (View.ld x0 r0_0)) (k0_pay3 (View.ld x1 r0_1)) (View.ld x2 r0_8) (View.ld x3 r0_9) (ix2 p q)
      = weight (x1 (ix2 p (0 : Fin 1))) (∑ d : Fin 1024, x0 (ix2 p d) * x2 (ix3 (3 : Fin 4) q d)) (x3 (ix3 (3 : Fin 4) (0 : Fin 1) q)) := by
    refine (weightBlk_at (k0_pay2 (View.ld x0 r0_0)) (k0_pay3 (View.ld x1 r0_1)) (View.ld x2 r0_8) (View.ld x3 r0_9) p q).trans ?_
    rw [hX, hN]
    exact congrArg₂ (weight (x1 (ix2 p (0 : Fin 1))))
      (Finset.sum_congr rfl fun d _ => congrArg (x0 (ix2 p d) * ·) (ld_centres_3 x2 q d)) (ld_norms_3 x3 q)
  refine (combine_at _ _ _ _ _).trans ?_
  exact combine_congr w0 w1 w2 w3

end Cert.RbfMix.Body

end
-- ==== Proof.Blocks.lean ====
/-
  From what each grid point writes back to the whole result array.

  The grid has 2 × 16 points `(oi, bi)`.  Point `(oi, bi)` reads rows `512·bi …` of `x` and of the column of row norms,
  centres `512·oi …` of every component (and their norms), and writes the 512×512 block `(bi, oi)` of the result.  So
  the entry `(p, q)` of that block is the tiled mixture at row `512·bi + p`, class `512·oi + q` of the four arrays the
  region is handed; the 32 blocks tile the result, hence the result array after the run is `mixTiled` of those arrays.
-/
import proofs.«165545_j36069135351858_2_alg».proof.Proof.Gen.KernelIdeal.Value
import proofs.«165545_j36069135351858_2_alg».proof.Proof.Body

noncomputable section

namespace Cert.RbfMix.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.RbfMix Cert.RbfMix.Body

variable (m : (ℓ : Loc nD τ sig) → Buf (Elt Ideal) ℓ) (ρ : Dev nD → PrngReg)

/-! ## The index maps over the grid -/

/-- The printed index maps, decided over the 32 points: the rows of `x` and of the norm column move with the
    output's block row, the centres and their norms with its block column, every other block index is zero, and
    the output's block indices stay in their ranges. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 3) = 0 ∧ win0_2.index t (1 : Fin 3) = win0_4.index t (1 : Fin 2) ∧ win0_2.index t (2 : Fin 3) = 0
    ∧ win0_3.index t (0 : Fin 3) = 0 ∧ win0_3.index t (1 : Fin 3) = 0 ∧ win0_3.index t (2 : Fin 3) = win0_4.index t (1 : Fin 2)
    ∧ win0_4.index t (0 : Fin 2) ≤ 15 ∧ win0_4.index t (1 : Fin 2) ≤ 1 :=
  (by decide +kernel : ∀ t : Fin grid0.N, _)

/-- Every block of the result is some point's. -/
theorem idx_onto : ∀ (q0 : Fin 16) (q1 : Fin 2), ∃ t : Fin cfg0.N, win0_4.index t = ![q0.val, q1.val] :=
  (by decide +kernel : ∀ (q0 : Fin 16) (q1 : Fin 2), ∃ t : Fin grid0.N, win0_4.index t = ![q0.val, q1.val])

/-- Row `p` of point `t`'s block is a row of the array. -/
theorem row_lt (t : Fin cfg0.N) (p : Fin 512) : win0_4.index t (0 : Fin 2) * 512 + p.val < 8192 := by
  obtain ⟨-, -, -, -, -, -, -, -, -, -, hB, -⟩ := idx_facts t
  have := p.isLt; omega

/-- Column `q` of point `t`'s block is a class of the array. -/
theorem col_lt (t : Fin cfg0.N) (q : Fin 512) : win0_4.index t (1 : Fin 2) * 512 + q.val < 1024 := by
  obtain ⟨-, -, -, -, -, -, -, -, -, -, -, hO⟩ := idx_facts t
  have := q.isLt; omega

/-- The array row under row `p` of point `t`'s block. -/
abbrev rowOf (t : Fin cfg0.N) (p : Fin 512) : Fin 8192 := ⟨win0_4.index t (0 : Fin 2) * 512 + p.val, row_lt t p⟩

/-- The class under column `q` of point `t`'s block. -/
abbrev colOf (t : Fin cfg0.N) (q : Fin 512) : Fin 1024 := ⟨win0_4.index t (1 : Fin 2) * 512 + q.val, col_lt t q⟩

/-! ## The input blocks, read where the output's block says -/

/-- The block of `x` at point `t`, at `(p, d)`. -/
theorem read_x (c : Dev nD) (t : Fin cfg0.N) (p : Fin 512) (d : Fin 1024) :
    (iblk m c 0 t : Vec Ideal S512x1024 .bf16) (ix2 p d) = V m c main_v8 (ix2 (rowOf t p) d) := by
  obtain ⟨e0, e1, -⟩ := idx_facts t
  show V m c main_v8 (((cfg0.win 0).blk t).view.emb (ix2 p d)) = _
  refine congrArg (V m c main_v8) (funext fun a => Fin.ext ?_)
  match a with
  | ⟨0, _⟩ => show win0_0.index t (0 : Fin 2) * 512 + 1 * p.val = win0_4.index t (0 : Fin 2) * 512 + p.val; omega
  | ⟨1, _⟩ => show win0_0.index t (1 : Fin 2) * 1024 + 1 * d.val = d.val; omega

/-- The block of row norms at point `t`, at `(p, 0)`. -/
theorem read_n (c : Dev nD) (t : Fin cfg0.N) (p : Fin 512) :
    (iblk m c 1 t : Vec Ideal S512x1 .f32) (ix2 p (0 : Fin 1)) = V m c main_v7 (ix2 (rowOf t p) (0 : Fin 1)) := by
  obtain ⟨-, -, e0, e1, -⟩ := idx_facts t
  show V m c main_v7 (((cfg0.win 1).blk t).view.emb (ix2 p (0 : Fin 1))) = _
  refine congrArg (V m c main_v7) (funext fun a => Fin.ext ?_)
  match a with
  | ⟨0, _⟩ => show win0_1.index t (0 : Fin 2) * 512 + 1 * p.val = win0_4.index t (0 : Fin 2) * 512 + p.val; omega
  | ⟨1, _⟩ => show win0_1.index t (1 : Fin 2) * 1 + 1 * 0 = 0; omega

/-- The stacked block of centres at point `t`, at `(k, q, d)`. -/
theorem read_c (c : Dev nD) (t : Fin cfg0.N) (k : Fin 4) (q : Fin 512) (d : Fin 1024) :
    (iblk m c 2 t : Vec Ideal S4x512x1024 .bf16) (ix3 k q d) = V m c main_v4 (ix3 k (colOf t q) d) := by
  obtain ⟨-, -, -, -, e0, e1, e2, -⟩ := idx_facts t
  show V m c main_v4 (((cfg0.win 2).blk t).view.emb (ix3 k q d)) = _
  refine congrArg (V m c main_v4) (funext fun a => Fin.ext ?_)
  match a with
  | ⟨0, _⟩ => show win0_2.index t (0 : Fin 3) * 4 + 1 * k.val = k.val; omega
  | ⟨1, _⟩ => show win0_2.index t (1 : Fin 3) * 512 + 1 * q.val = win0_4.index t (1 : Fin 2) * 512 + q.val; omega
  | ⟨2, _⟩ => show win0_2.index t (2 : Fin 3) * 1024 + 1 * d.val = d.val; omega

/-- The stacked rows of centre norms at point `t`, at `(k, 0, q)`. -/
theorem read_k (c : Dev nD) (t : Fin cfg0.N) (k : Fin 4) (q : Fin 512) :
    (iblk m c 3 t : Vec Ideal S4x1x512 .f32) (ix3 k (0 : Fin 1) q) = V m c main_v3 (ix3 k (0 : Fin 1) (colOf t q)) := by
  obtain ⟨-, -, -, -, -, -, -, e0, e1, e2, -⟩ := idx_facts t
  show V m c main_v3 (((cfg0.win 3).blk t).view.emb (ix3 k (0 : Fin 1) q)) = _
  refine congrArg (V m c main_v3) (funext fun a => Fin.ext ?_)
  match a with
  | ⟨0, _⟩ => show win0_3.index t (0 : Fin 3) * 4 + 1 * k.val = k.val; omega
  | ⟨1, _⟩ => show win0_3.index t (1 : Fin 3) * 1 + 1 * 0 = 0; omega
  | ⟨2, _⟩ => show win0_3.index t (2 : Fin 3) * 512 + 1 * q.val = win0_4.index t (1 : Fin 2) * 512 + q.val; omega

/-! ## What a point writes back -/

/-- WHAT POINT `t` WRITES BACK is block `t` of the tiled mixture of the four arrays the region is handed. -/
theorem flushed_eq (c : Dev nD) (t : Fin cfg0.N) :
    (dats m 0 c).flushed 4 t = ((cfg0.win 4).blk t).view.read (Elt Ideal)
      (mixTiled (V m c main_v8) (V m c main_v7) (V m c main_v4) (V m c main_v3)) := by
  rw [Cert.KernelIdeal.Value.flushed4]
  funext j
  obtain ⟨p, q, rfl⟩ : ∃ (p q : Fin 512), j = ix2 p q := ⟨j 0, j 1, eq_ix2 j⟩
  have e : ((cfg0.win 4).blk t).view.emb (ix2 p q) = ix2 (rowOf t p) (colOf t q) := by
    funext a; apply Fin.ext
    match a with
    | ⟨0, _⟩ => show win0_4.index t (0 : Fin 2) * 512 + 1 * p.val = win0_4.index t (0 : Fin 2) * 512 + p.val; omega
    | ⟨1, _⟩ => show win0_4.index t (1 : Fin 2) * 512 + 1 * q.val = win0_4.index t (1 : Fin 2) * 512 + q.val; omega
  show out0_4 (iblk m c 0 t) (iblk m c 1 t) (iblk m c 2 t) (iblk m c 3 t) (ix2 p q)
    = mixTiled (V m c main_v8) (V m c main_v7) (V m c main_v4) (V m c main_v3) (((cfg0.win 4).blk t).view.emb (ix2 p q))
  rw [e]
  refine (out_at (iblk m c 0 t) (iblk m c 1 t) (iblk m c 2 t) (iblk m c 3 t) p q).trans ?_
  show _ = mixTiledAt (V m c main_v8) (V m c main_v7) (V m c main_v4) (V m c main_v3) (rowOf t p) (colOf t q)
  unfold mixTiledAt
  refine congrArg combine (funext fun k => ?_)
  exact weight_congr (read_n m c t p)
    (Finset.sum_congr rfl fun d _ => by rw [read_x m c t p d, read_c m c t k q d]) (read_k m c t k q)

/-! ## The cover -/

/-- An index of the result is in point `t`'s block iff each coordinate is in the block's range on its axis. -/
theorem mem_blk (t : Fin cfg0.N) (i : S8192x1024.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v9).slice (win0_4.rect t)).set ↔ _
  rw [View.set_slice_whole, Rect.mem_set_unit]
  exact Iff.rfl

/-- Every index of the result is in some writing point's block: the one whose block row is the row over 512 and
    whose block column is the class over 512. -/
theorem cover (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := idx_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 512 ≤ (i 1).val ∧ (i 1).val < win0_4.index t (1 : Fin 2) * 512 + 512
    omega

/-! ## The array after the run -/

/-- THE RESULT ARRAY after the run is the tiled mixture of the four arrays the region is handed. -/
theorem final (c : Dev nD) :
    (dats m 0 c).arrAt 4 cfg0.N = mixTiled (V m c main_v8) (V m c main_v7) (V m c main_v4) (V m c main_v3) :=
  (dats m 0 c).arrAt_eq_of_cover 4 _ (fun t _ => flushed_eq m c t) cover

end Cert.RbfMix.Blocks

end
-- ==== Proof.HostSide.lean ====
/-
  The four arrays the region is handed, in terms of the two arguments.

  Before the region the program forms, from `x : [8192, 1024]` and the centres `c : [1024, 4, 1024]`:
  `x` in the narrower float format (the same extended reals); the column `[8192, 1]` of the squared row norms
  `Σ_d x(b, d)²`, summed from zero; the centres with the component axis first, `(k, o, d) ↦ c(o, k, d)`, in the narrower
  format; and their squared norms `Σ_d c(o, k, d)²` as `[4, 1, 1024]`.  Read at an index these are the entries `mix`
  is written with, so the tiled mixture of the four arrays is the mixture of the two arguments.
-/
import proofs.«165545_j36069135351858_2_alg».proof.Proof.Gen.KernelIdeal.Frame
import proofs.«165545_j36069135351858_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.RbfMix.HostSide

open Cert.KernelIdeal Cert.KernelIdeal.Gen Idealize.ShloMosaic Idealize.ShloMosaic.TcCoe Idealize.SL.Sem
open Idealize.ShloMosaic.StableHlo Idealize.ShloMosaic.ValueIdx
open Cert.RbfMix

variable (m : (ℓ : Loc nD τ sig) → Buf (Elt Ideal) ℓ)

/-- The argument `x` on device `c`, as a vector of extended reals. -/
abbrev argX (c : Dev nD) : FVec Ideal S8192x1024 .f32 := m ((c : Thread nD τ).loc main_arg0)

/-- The argument `c` (the centres) on device `c`, as a vector of extended reals. -/
abbrev argC (c : Dev nD) : FVec Ideal S1024x4x1024 .f32 := m ((c : Thread nD τ).loc main_arg1)

/-- The centres with the component axis first. -/
abbrev centresT (y : FVec Ideal S1024x4x1024 .f32) : FVec Ideal S4x1024x1024 .f32 :=
  transpose S4x1024x1024 [1, 0, 2] y Facts₀.transposes_S1024x4x1024_S4x1024x1024_1_0_2

/-! ## The arrays as the operations' terms -/

/-- `x` as the region finds it: the argument, narrowed. -/
theorem V_x (c : Dev nD) : @Eq (FVec Ideal S8192x1024 .bf16) (V m c main_v8)
    (truncf .bf16 (argX m c) Facts₀.bitsLt_bf16_f32) := by
  dsimp only [Gen.V, Gen.hostOps0]; after_results

/-- The column of squared row norms as the region finds it. -/
theorem V_n (c : Dev nD) : @Eq (FVec Ideal S8192x1 .f32) (V m c main_v7)
    (broadcastInDim S8192x1 ![0] Facts₀.bcast_S8192_S8192x1_0
        (Host.reduceAdd (mulf (argX m c) (argX m c))
          (constant (F := Ideal) S_ .f32 0x00000000#32) Facts₀.reducesTo_S8192x1024_S8192_d1 Facts₀.h_S_)) := by
  dsimp only [Gen.V, Gen.hostOps0]; after_results

/-- The centres as the region finds them: component axis first, narrowed. -/
theorem V_c (c : Dev nD) : @Eq (FVec Ideal S4x1024x1024 .bf16) (V m c main_v4)
    (truncf .bf16 (centresT (argC m c)) Facts₀.bitsLt_bf16_f32) := by
  dsimp only [Gen.V, Gen.hostOps0]; after_results

/-- The centres' squared norms as the region finds them. -/
theorem V_k (c : Dev nD) : @Eq (FVec Ideal S4x1x1024 .f32) (V m c main_v3)
    (broadcastInDim S4x1x1024 ![0, 2] Facts₀.bcast_S4x1024_S4x1x1024_0_2
        (Host.reduceAdd (mulf (centresT (argC m c)) (centresT (argC m c)))
          (constant (F := Ideal) S_ .f32 0x00000000#32) Facts₀.reducesTo_S4x1024x1024_S4x1024_d2 Facts₀.h_S_)) := by
  dsimp only [Gen.V, Gen.hostOps0]; after_results

/-! ## Read at an index -/

/-- The transposed centres at `(k, o, d)` are the centres at `(o, k, d)`. -/
theorem centresT_at (y : FVec Ideal S1024x4x1024 .f32) (k : Fin 4) (o : Fin 1024) (d : Fin 1024) :
    centresT y (ix3 k o d) = y (ix3 o k d) :=
  transpose_apply [1, 0, 2] y _ (ix3 k o d) (ix3 o k d) (fun b => match b with
    | ⟨0, _⟩ => rfl
    | ⟨1, _⟩ => rfl
    | ⟨2, _⟩ => rfl)

theorem x_at (c : Dev nD) (b : Fin 8192) (d : Fin 1024) :
    (V m c main_v8 : FVec Ideal S8192x1024 .bf16) (ix2 b d) = argX m c (ix2 b d) :=
  congrFun (V_x m c) (ix2 b d)

theorem c_at (c : Dev nD) (k : Fin 4) (o : Fin 1024) (d : Fin 1024) :
    (V m c main_v4 : FVec Ideal S4x1024x1024 .bf16) (ix3 k o d) = argC m c (ix3 o k d) :=
  (congrFun (V_c m c) (ix3 k o d)).trans (centresT_at _ k o d)

/-- A row's squared norm, summed from zero over the 1024 columns. -/
theorem rowNorm_at (x : FVec Ideal S8192x1024 .f32) (b : Fin 8192) :
    Host.reduceAdd (mulf x x) (constant (F := Ideal) S_ .f32 0x00000000#32) Facts₀.reducesTo_S8192x1024_S8192_d1 Facts₀.h_S_ (ix1 b)
      = ∑ d : Fin 1024, x (ix2 b d) * x (ix2 b d) := by
  simp only [Host.reduceAdd, Ideal.hostReduceAdd_def]
  rw [Ideal.hostReduceAdd_single Facts₀.reducesTo_S8192x1024_S8192_d1 (by decide)]
  show Ideal.ofBits .f32 0x00000000#32 + _ = _
  rw [Ideal.ofBits_zero_f32, zero_add]
  refine Finset.sum_congr rfl fun k _ => ?_
  exact congrArg (fun i => x i * x i) (funext fun a => Fin.ext (by match a with | ⟨0, _⟩ => rfl | ⟨1, _⟩ => rfl))

theorem n_at (c : Dev nD) (b : Fin 8192) :
    (V m c main_v7 : FVec Ideal S8192x1 .f32) (ix2 b (0 : Fin 1))
      = ∑ d : Fin 1024, argX m c (ix2 b d) * argX m c (ix2 b d) := by
  refine (congrFun (V_n m c) (ix2 b (0 : Fin 1))).trans ?_
  refine (broadcastInDim_apply _ Facts₀.bcast_S8192_S8192x1_0 _ (ix2 b (0 : Fin 1)) (ix1 b) (fun a => match a with
    | ⟨0, _⟩ => by show b.val = if (8192 : Nat) = 1 then 0 else b.val; rw [if_neg (by decide)])).trans ?_
  exact rowNorm_at _ b

/-- A centre's squared norm, summed from zero over the 1024 columns of the transposed centres. -/
theorem centreNorm_at (y : FVec Ideal S1024x4x1024 .f32) (k : Fin 4) (o : Fin 1024) :
    Host.reduceAdd (mulf (centresT y) (centresT y)) (constant (F := Ideal) S_ .f32 0x00000000#32)
        Facts₀.reducesTo_S4x1024x1024_S4x1024_d2 Facts₀.h_S_ (ix2 k o)
      = ∑ d : Fin 1024, y (ix3 o k d) * y (ix3 o k d) := by
  simp only [Host.reduceAdd, Ideal.hostReduceAdd_def]
  rw [Ideal.hostReduceAdd_single Facts₀.reducesTo_S4x1024x1024_S4x1024_d2 (by decide)]
  show Ideal.ofBits .f32 0x00000000#32 + _ = _
  rw [Ideal.ofBits_zero_f32, zero_add]
  refine Finset.sum_congr rfl fun d _ => ?_
  have e : ∀ i : S4x1024x1024.Idx, i = ix3 k o (⟨d.val, d.isLt⟩ : Fin 1024) → mulf (centresT y) (centresT y) i = y (ix3 o k d) * y (ix3 o k d) := by
    intro i hi; subst hi
    show centresT y (ix3 k o _) * centresT y (ix3 k o _) = _
    rw [centresT_at]
    rfl
  exact e _ (funext fun a => Fin.ext (by match a with | ⟨0, _⟩ => rfl | ⟨1, _⟩ => rfl | ⟨2, _⟩ => rfl))

theorem k_at (c : Dev nD) (k : Fin 4) (o : Fin 1024) :
    (V m c main_v3 : FVec Ideal S4x1x1024 .f32) (ix3 k (0 : Fin 1) o)
      = ∑ d : Fin 1024, argC m c (ix3 o k d) * argC m c (ix3 o k d) := by
  refine (congrFun (V_k m c) (ix3 k (0 : Fin 1) o)).trans ?_
  refine (broadcastInDim_apply _ Facts₀.bcast_S4x1024_S4x1x1024_0_2 _ (ix3 k (0 : Fin 1) o) (ix2 k o) (fun a => match a with
    | ⟨0, _⟩ => by show k.val = if (4 : Nat) = 1 then 0 else k.val; rw [if_neg (by decide)]
    | ⟨1, _⟩ => by show o.val = if (1024 : Nat) = 1 then 0 else o.val; rw [if_neg (by decide)])).trans ?_
  exact centreNorm_at _ k o

/-! ## The tiled mixture of the four arrays is the mixture of the arguments -/

theorem tiled_eq (c : Dev nD) :
    mixTiled (V m c main_v8) (V m c main_v7) (V m c main_v4) (V m c main_v3)
      = mix (argX m c) (argC m c) := by
  funext i
  obtain ⟨b, o, rfl⟩ : ∃ (b : Fin 8192) (o : Fin 1024), i = ix2 b o := ⟨i 0, i 1, eq_ix2 i⟩
  show mixTiledAt (V m c main_v8) (V m c main_v7) (V m c main_v4) (V m c main_v3) b o
    = mixAt (argX m c) (argC m c) b o
  unfold mixTiledAt mixAt
  refine congrArg combine (funext fun k => ?_)
  exact weight_congr (n_at m c b) (Finset.sum_congr rfl fun d _ => by rw [x_at m c b d, c_at m c k o d]) (k_at m c k o)

end Cert.RbfMix.HostSide

end
-- ==== Proof.lean ====
/-
  The kernel and its reference compute the same max-normalised Gaussian mixture.

  Both programs take `x : [8192, 1024]` and centres `c : [1024, 4, 1024]` and return, at row `b` and class `o`,
  `Σ_m p_m / ((Σ_m p_m + 4) − 4 · max_m p_m)` with `p_m = exp (−(‖x_b‖² − 2⟨x_b, c_{o,m}⟩ + ‖c_{o,m}‖²) / (1/2))`.
  The reference evaluates this over whole arrays; the kernel tiles the result into 32 blocks of 512 × 512, handing each
  grid point 512 rows of `x` (and of their squared norms) and 512 centres of each component (and their squared
  norms), forms the inner products as four block products, doubles the negated distance instead of dividing it by one
  half, and adds and maximises the four weights one after the other.  On the extended reals a change of float format
  is the identity, a block product into zero is the plain sum, dividing by one half is doubling, and the sum and the
  maximum of four do not depend on the grouping or on the starting value 0 / −∞: so both results are the one function
  `Cert.RbfMix.mix` of the arguments (Proof/Spec.lean).

  Proof/RefValue.lean reads the reference's run as `mix`; Proof/Body.lean reads the block a grid point stores,
  Proof/Blocks.lean assembles the 32 blocks into the result array as a function of the four arrays the region is
  handed, and Proof/HostSide.lean reads those four arrays off the two arguments.  The three programs' runs, their
  termination and the arguments' preservation are the generated modules'; no rewrite was applied when the idealised
  kernel was printed, so there is nothing to preserve beyond the program text.
-/
import proofs.«165545_j36069135351858_2_alg».proof.Defs
import proofs.«165545_j36069135351858_2_alg».proof.Proof.Gen.Kernel
import proofs.«165545_j36069135351858_2_alg».proof.Proof.Gen.Kernel.Skeleton
import proofs.«165545_j36069135351858_2_alg».proof.Proof.Gen.Kernel.Launch
import proofs.«165545_j36069135351858_2_alg».proof.Proof.Gen.Kernel.Points
import proofs.«165545_j36069135351858_2_alg».proof.Proof.Gen.Kernel.Frame
import proofs.«165545_j36069135351858_2_alg».proof.Proof.Gen.KernelIdeal
import proofs.«165545_j36069135351858_2_alg».proof.Proof.Gen.KernelIdeal.Skeleton
import proofs.«165545_j36069135351858_2_alg».proof.Proof.Gen.KernelIdeal.Launch
import proofs.«165545_j36069135351858_2_alg».proof.Proof.Gen.KernelIdeal.Points
import proofs.«165545_j36069135351858_2_alg».proof.Proof.Gen.KernelIdeal.Frame
import proofs.«165545_j36069135351858_2_alg».proof.Proof.Gen.ReferenceIdeal
import proofs.«165545_j36069135351858_2_alg».proof.Proof.Gen.KernelIdeal.Value
import proofs.«165545_j36069135351858_2_alg».proof.Proof.Gen.ReferenceIdeal.Run
import proofs.«165545_j36069135351858_2_alg».proof.Proof.Gen.ReferenceIdeal.Read
import proofs.«165545_j36069135351858_2_alg».proof.Proof.Gen.Pre_finite_inputs
import proofs.«165545_j36069135351858_2_alg».proof.Proof.RefValue
import proofs.«165545_j36069135351858_2_alg».proof.Proof.Blocks
import proofs.«165545_j36069135351858_2_alg».proof.Proof.HostSide
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- So does the idealised reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealised kernel's result array ends at the mixture of its arguments (the blocks assembled, then the four
    arrays the region is handed read off the arguments) and the idealised reference's at the mixture of its own;
    the arguments agree. -/
theorem algebraic : Cert.algebraic_KernelIdeal_ReferenceIdeal := by
  intro m ρ m' ρ' _ hagree
  refine ⟨fun c => Cert.RbfMix.mix
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans ((Cert.RbfMix.Blocks.final m c).trans (Cert.RbfMix.HostSide.tiled_eq m c)), (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v24_eq, Cert.RbfMix.Reference.value_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
